-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x64x128x128 : Shape := ⟨5, ![2, 16, 64, 128, 128]⟩
abbrev S16 : Shape := ⟨1, ![16]⟩
abbrev S_ : Shape := ⟨0, ![]⟩

class Facts : Prop where
  bcast_S_S2x16x64x128x128 : S_.BroadcastsInDim S2x16x64x128x128 (![] : Fin 0 → Fin S2x16x64x128x128.rank)
  reducesTo_S2x16x64x128x128_S_d0_1_2_3_4 : S2x16x64x128x128.ReducesTo [0, 1, 2, 3, 4] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x16x64x128x128 .f32) (main_arg1 : FVec F S2x16x64x128x128 .f32) (main_arg2 : FVec F S16 .f32) : IVec S_ 1 :=
  let main_v0 : FVec F S2x16x64x128x128 .f32 := Host.absf main_arg0
  let main_cst : FVec F S_ .f32 := constant S_ .f32 0x7F800000#32
  let main_v1 : FVec F S2x16x64x128x128 .f32 := broadcastInDim S2x16x64x128x128 ![] bcast_S_S2x16x64x128x128 main_cst
  let main_v2 : IVec S2x16x64x128x128 1 := cmpf .olt main_v0 main_v1
  let main_c : IVec S_ 1 := constantI S_ 1 1#1
  let main_v3 : IVec S_ 1 := (fun x v => Host.reduce IntOp.andi x v reducesTo_S2x16x64x128x128_S_d0_1_2_3_4 h_S_) main_v2 main_c
  let main_v4 : FVec F S2x16x64x128x128 .f32 := Host.absf main_arg1
  let main_cst_0 : FVec F S_ .f32 := constant S_ .f32 0x7F800000#32
  let main_v5 : FVec F S2x16x64x128x128 .f32 := broadcastInDim S2x16x64x128x128 ![] bcast_S_S2x16x64x128x128 main_cst_0
  let main_v6 : IVec S2x16x64x128x128 1 := cmpf .olt main_v4 main_v5
  let main_c_1 : IVec S_ 1 := constantI S_ 1 1#1
  let main_v7 : IVec S_ 1 := (fun x v => Host.reduce IntOp.andi x v reducesTo_S2x16x64x128x128_S_d0_1_2_3_4 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S2x16x64x128x128 : Shape := ⟨5, ![2, 16, 64, 128, 128]⟩
abbrev S16 : Shape := ⟨1, ![16]⟩
abbrev S16x1 : Shape := ⟨2, ![16, 1]⟩
abbrev S2x16x2x128x128 : Shape := ⟨5, ![2, 16, 2, 128, 128]⟩
abbrev S2x16x2x128 : Shape := ⟨4, ![2, 16, 2, 128]⟩
abbrev S16x2x128 : Shape := ⟨3, ![16, 2, 128]⟩
abbrev S16x128 : Shape := ⟨2, ![16, 128]⟩
abbrev S_ : Shape := ⟨0, ![]⟩

abbrev nBuf : Space → Nat
  | .hbm => 14
  | .vmem => 5
  | .smem => 0
  | _ => 0

abbrev bufTy : (tb : Table) → Fin (tcTables nBuf tb) → BufTy
  | .hbm, ⟨0, _⟩ => ⟨S2x16x64x128x128, .f32⟩
  | .hbm, ⟨1, _⟩ => ⟨S2x16x64x128x128, .f32⟩
  | .hbm, ⟨2, _⟩ => ⟨S16, .f32⟩
  | .hbm, ⟨3, _⟩ => ⟨S16x1, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2x16x2x128x128, .f32⟩
  | .local _ .vmem, ⟨1, _⟩ => ⟨S2x16x2x128x128, .f32⟩
  | .local _ .vmem, ⟨2, _⟩ => ⟨S2x16x2x128x128, .f32⟩
  | .local _ .vmem, ⟨3, _⟩ => ⟨S2x16x2x128x128, .f32⟩
  | .local _ .vmem, ⟨4, _⟩ => ⟨S16x1, .f32⟩
  | _, _ => ⟨S2x16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x16x2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S16x1_S16x1_0_0 : ∀ a, (![0, 0] : Fin 2 → Nat) a + S16x1.size a ≤ S16x1.size a
  h_S16x1 : 0 < S16x1.numel
  inb_S2x16x2x128x128_S2x16x2x128x128_0_0_0_0_0 : ∀ a, (![0, 0, 0, 0, 0] : Fin 5 → Nat) a + S2x16x2x128x128.size a ≤ S2x16x2x128x128.size a
  h_S2x16x2x128x128 : 0 < S2x16x2x128x128.numel
  reduces_S2x16x2x128x128_S2x16x2x128 : S2x16x2x128x128.Reduces [4] S2x16x2x128
  reduces_S2x16x2x128_S16x2x128 : S2x16x2x128.Reduces [0] S16x2x128
  reduces_S16x2x128_S16x128 : S16x2x128.Reduces [1] S16x128
  reduces_S16x128_S16 : S16x128.Reduces [1] S16
  shapeCasts_S16_S16x1 : S16.ShapeCasts S16x1
  shapeCasts_S16x1_S16x1 : S16x1.ShapeCasts S16x1
  shapeCasts_S16x1_S16 : S16x1.ShapeCasts S16
  bcast_S_S16 : S_.BroadcastsInDim S16 (![] : Fin 0 → Fin S16.rank)
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x2x128x128.size a ≤ S2x16x64x128x128.size a
  hwx0_0 : ∀ i : grid0.Coords, EltTy.bits .f32 = 32 ∨ (Rect.block (s := S2x16x64x128x128) S2x16x2x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x2x128x128.size a ≤ S2x16x64x128x128.size a
  hwx0_1 : ∀ i : grid0.Coords, EltTy.bits .f32 = 32 ∨ (Rect.block (s := S2x16x64x128x128) S2x16x2x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)

variable [Facts₀]

abbrev win0_0 : Pipeline.Window sig grid0 :=
  Pipeline.Window.ofSpec (Memref.whole main_arg0) S2x16x2x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16x2x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x64x128x128 : Shape := ⟨5, ![2, 16, 64, 128, 128]⟩
abbrev S16 : Shape := ⟨1, ![16]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2x16x64x128x128, .f32⟩
  | .hbm, ⟨1, _⟩ => ⟨S2x16x64x128x128, .f32⟩
  | .hbm, ⟨2, _⟩ => ⟨S16, .f32⟩
  | .hbm, ⟨3, _⟩ => ⟨S2x16x64x128x128, .f32⟩
  | .hbm, ⟨4, _⟩ => ⟨S_, .f32⟩
  | .hbm, ⟨5, _⟩ => ⟨S2x16x64x128x128, .f32⟩
  | .hbm, ⟨6, _⟩ => ⟨S2x16x64x128x128, .f32⟩
  | .hbm, ⟨7, _⟩ => ⟨S2x16x64x128x128, .f32⟩
  | .hbm, ⟨8, _⟩ => ⟨S2x16x64x128x128, .f32⟩
  | .hbm, ⟨9, _⟩ => ⟨S_, .f32⟩
  | .hbm, ⟨10, _⟩ => ⟨S2x16x64x128x128, .f32⟩
  | .hbm, ⟨11, _⟩ => ⟨S2x16x64x128x128, .f32⟩
  | .hbm, ⟨12, _⟩ => ⟨S2x16x64x128x128, .f32⟩
  | .hbm, ⟨13, _⟩ => ⟨S_, .f32⟩
  | .hbm, ⟨14, _⟩ => ⟨S2x16x64x128x128, .f32⟩
  | .hbm, ⟨15, _⟩ => ⟨S2x16x64x128x128, .f32⟩
  | .hbm, ⟨16, _⟩ => ⟨S2x16x64x128x128, .f32⟩
  | .hbm, ⟨17, _⟩ => ⟨S2x16x64x128x128, .f32⟩
  | .hbm, ⟨18, _⟩ => ⟨S2x16x64x128x128, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S2x16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S2x16x64x128x128 : S_.BroadcastsInDim S2x16x64x128x128 (![] : Fin 0 → Fin S2x16x64x128x128.rank)
  reducesTo_S2x16x64x128x128_S16_d0_2_3_4 : S2x16x64x128x128.ReducesTo [0, 2, 3, 4] S16
  h_S_ : 0 < S_.numel
  bcast_S_S16 : S_.BroadcastsInDim S16 (![] : Fin 0 → Fin S16.rank)
  reducesTo_S16_S_d0 : S16.ReducesTo [0] S_

variable [Facts₀]

class Facts : Prop extends Facts₀ where

variable [Facts]
-- ==== Proof.Pieces.lean ====
/-
  What the kernel body leaves in the accumulator's buffer, in each of its two cases.

  The body stores the accumulator's whole 16 × 1 block once (after zeroing it first, at the first grid point). Its
  stored value is one expression `k0_pay2` of the two input blocks and of the accumulator as the body finds it:
    * at a later grid point (case B) the accumulator it finds is what the point before left, `xo`;
    * at the first grid point (case A) it is the block of zeros the body has just stored, `k0_pay1`.
  Each load reads a whole buffer through the rectangle at offset zero of full extent, which is the buffer itself.
-/
import proofs.«117006_j21577915695561_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- Offset zero on the two axes of the accumulator's block, -/
theorem off2 : (![0, 0] : Fin 2 → Nat) = fun _ => 0 := funext fun a => by fin_cases a <;> rfl
/-- and on the five axes of an input block. -/
theorem off5 : (![0, 0, 0, 0, 0] : Fin 5 → Nat) = fun _ => 0 := funext fun a => by fin_cases a <;> rfl

/-- A later grid point: over an accumulator holding `xo`, the body leaves `k0_pay2` of the input blocks and `xo`. -/
theorem left_later (c : Dev nD) (i : grid0.Coords)
    (a1 : Memref sig .tc .vmem S2x16x2x128x128 .f32) (h1 : a1.IsWhole)
    (a2 : Memref sig .tc .vmem S2x16x2x128x128 .f32) (h2 : a2.IsWhole)
    (a3 : Memref sig .tc .vmem S16x1 .f32) (h3 : a3.IsWhole) (hc : ¬cond0_0 i)
    (x0 x1 : Vec F S2x16x2x128x128 .f32) (xo : Vec F S16x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero off2]
  simp only [View.readAt_eq_ld, h1.read_unread, h2.read_unread, h3.read_unread,
    View.ld_unit_zero (S := S2x16x2x128x128) off5, View.ld_unit_zero (S := S16x1) off2]

/-- The first grid point: the body zeroes the accumulator, reads the zeros back, and leaves `k0_pay2` of the input
    blocks and the zeros. -/
theorem left_first (c : Dev nD) (i : grid0.Coords)
    (a1 : Memref sig .tc .vmem S2x16x2x128x128 .f32) (h1 : a1.IsWhole)
    (a2 : Memref sig .tc .vmem S2x16x2x128x128 .f32) (h2 : a2.IsWhole)
    (a3 : Memref sig .tc .vmem S16x1 .f32) (h3 : a3.IsWhole) (hc : cond0_0 i)
    (x0 x1 : Vec F S2x16x2x128x128 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S16x1) off2, View.readCov_unit_zero (S := S16x1) _ off2]
  simp only [View.readAt_eq_ld, h1.read_unread, h2.read_unread,
    View.ld_unit_zero (S := S2x16x2x128x128) off5]

end Cert.KernelIdeal.Acc

end
-- ==== Proof.BceSpec.lean ====
/-
  Binary cross-entropy of one element, and sums over the elements of one class.

  For a prediction `p` and a target `t` the loss is `-(t · max(log p, -100) + (1 - t) · max(log(1 + (-p)), -100))`,
  read on the extended reals. A program may spell the two negations as `0 - x`; on the extended reals `0 - x = -x`
  at every `x`, the infinities included, so the two spellings are one function (`loss_sub`).

  The per-class total is a sum of losses over every element whose class coordinate is the given one. A sum taken in
  stages — first over the fibres of one projection, then over the fibres of a second — is the sum over the fibres of
  the composite (`sum_fibre_fibre`): addition of extended reals is commutative and associative, so no finiteness is
  needed anywhere in this file.
-/
import Idealize.ShloMosaic.PureOps.Ideal
import Idealize.ShloMosaic.PureOps.Ideal.Laws
import Idealize.ShloMosaic.Lib.ValueIdx

noncomputable section

open scoped BigOperators

namespace Cert.Bce

open Idealize.ShloMosaic

/-- The clamp the logarithms are cut off at from below: the word of `-100`. -/
abbrev lo : EReal := Ideal.ofBits .f32 0xC2C80000#32
/-- The word of `1`. -/
abbrev one : EReal := Ideal.ofBits .f32 0x3F800000#32

/-- The loss of one element with prediction `p` and target `t`. -/
def loss (p t : EReal) : EReal :=
  -(t * max (Ideal.log p) lo + (one - t) * max (Ideal.log1p (-p)) lo)

/-- The same loss with both negations written as subtractions from zero. -/
theorem loss_sub (p t : EReal) :
    (0 : EReal) - (t * max (Ideal.log p) lo + (one - t) * max (Ideal.log1p (0 - p)) lo) = loss p t := by
  unfold loss
  rw [zero_sub, zero_sub]

/-- A sum over the fibres of `h` of sums over the fibres of `g` is the sum over the fibres of `h ∘ g`. -/
theorem sum_fibre_fibre {ι κ μ : Type} [Fintype ι] [Fintype κ] [DecidableEq κ] [DecidableEq μ]
    (g : ι → κ) (h : κ → μ) (x : ι → EReal) (j : μ) :
    ∑ k ∈ Finset.univ.filter (fun k => h k = j), ∑ i ∈ Finset.univ.filter (fun i => g i = k), x i
      = ∑ i ∈ Finset.univ.filter (fun i => h (g i) = j), x i := by
  rw [Finset.sum_fiberwise_eq_sum_filter]
  refine Finset.sum_congr ?_ fun _ _ => rfl
  ext i
  simp only [Finset.mem_filter, Finset.mem_univ, true_and]

end Cert.Bce

end
-- ==== Proof.TileSum.lean ====
/-
  Summing an array of shape 2 × 16 × 64 × 128 × 128 tile by tile along its depth axis.

  The depth axis (extent 64) is cut into 32 tiles of 2. Element `(b, c, e, h, w)` of tile `t` is element
  `(b, c, 2t + e, h, w)` of the array (`place`). Every depth `d < 64` is `2 · (d / 2) + d % 2` in exactly one way,
  so `(t, y) ↦ place t y` is a bijection from (tiles × tile indices of class `c`) onto the array indices of class `c`,
  and the sum over the tiles of the per-tile class sums is the class sum over the whole array (`sum_tiles`).
  Only commutativity and associativity of addition are used.
-/
import proofs.«117006_j21577915695561_2_alg».proof.Proof.BceSpec

noncomputable section

open scoped BigOperators

namespace Cert.Bce

open Idealize.ShloMosaic Idealize.ShloMosaic.ValueIdx

/-- The whole arrays' shape. -/
abbrev Arr : Shape := ⟨5, ![2, 16, 64, 128, 128]⟩
/-- The shape of one tile: two consecutive depths. -/
abbrev Blk : Shape := ⟨5, ![2, 16, 2, 128, 128]⟩

/-- Where element `y` of tile `t` sits in the array: at depth `2t + y₂`, the other coordinates unchanged. -/
def place (t : Fin 32) (y : Blk.Idx) : Arr.Idx :=
  ix5 (y 0) (y 1)
    (⟨2 * t.val + (y 2).val, by have := t.isLt; have : (y 2).val < 2 := (y 2).isLt; omega⟩ : Fin 64) (y 3) (y 4)

/-- The tile an array index lies in, -/
def tileOf (i : Arr.Idx) : Fin 32 := ⟨(i 2).val / 2, by have : (i 2).val < 64 := (i 2).isLt; omega⟩
/-- and its index inside that tile. -/
def within (i : Arr.Idx) : Blk.Idx :=
  ix5 (i 0) (i 1) (⟨(i 2).val % 2, Nat.mod_lt _ (by decide)⟩ : Fin 2) (i 3) (i 4)

theorem place_class (t : Fin 32) (y : Blk.Idx) : ((place t y) 1).val = (y 1).val := rfl
theorem within_class (i : Arr.Idx) : ((within i) 1).val = (i 1).val := rfl

theorem place_within (i : Arr.Idx) : place (tileOf i) (within i) = i := by
  funext a
  match a with
  | ⟨0, _⟩ => rfl
  | ⟨1, _⟩ => rfl
  | ⟨2, _⟩ =>
    apply Fin.ext
    show 2 * ((i 2).val / 2) + (i 2).val % 2 = (i 2).val
    omega
  | ⟨3, _⟩ => rfl
  | ⟨4, _⟩ => rfl

theorem tileOf_place (t : Fin 32) (y : Blk.Idx) : tileOf (place t y) = t := by
  apply Fin.ext
  show (2 * t.val + (y 2).val) / 2 = t.val
  have : (y 2).val < 2 := (y 2).isLt
  omega

theorem within_place (t : Fin 32) (y : Blk.Idx) : within (place t y) = y := by
  funext a
  match a with
  | ⟨0, _⟩ => rfl
  | ⟨1, _⟩ => rfl
  | ⟨2, _⟩ =>
    apply Fin.ext
    show (2 * t.val + (y 2).val) % 2 = (y 2).val
    have : (y 2).val < 2 := (y 2).isLt
    omega
  | ⟨3, _⟩ => rfl
  | ⟨4, _⟩ => rfl

/-- The class sum over the array is the sum, over the 32 tiles, of the class sums over each tile. -/
theorem sum_tiles (f : Arr.Idx → EReal) (c : ℕ) :
    ∑ t : Fin 32, ∑ y ∈ Finset.univ.filter (fun y : Blk.Idx => (y 1).val = c), f (place t y)
      = ∑ i ∈ Finset.univ.filter (fun i : Arr.Idx => (i 1).val = c), f i := by
  rw [← Finset.sum_product']
  refine Finset.sum_nbij' (fun p => place p.1 p.2) (fun i => (tileOf i, within i)) ?_ ?_ ?_ ?_ ?_
  · intro p hp
    have hy := (Finset.mem_filter.mp (Finset.mem_product.mp hp).2).2
    exact Finset.mem_filter.mpr ⟨Finset.mem_univ _, (place_class p.1 p.2).trans hy⟩
  · intro i hi
    have hc := (Finset.mem_filter.mp hi).2
    exact Finset.mem_product.mpr ⟨Finset.mem_univ _,
      Finset.mem_filter.mpr ⟨Finset.mem_univ _, (within_class i).trans hc⟩⟩
  · intro p _
    exact Prod.ext (tileOf_place p.1 p.2) (within_place p.1 p.2)
  · intro i _
    exact place_within i
  · intro p _
    rfl

end Cert.Bce

end
-- ==== Proof.ClassSums.lean ====
/-
  The two programs' reductions read as sums over the elements of one class.

  A reduction's value at a result index `j` is, by definition, the sum of the source over the indices that drop to `j`
  when the reduced axes are removed. For a tile of shape 2 × 16 × 2 × 128 × 128 reduced in four single-axis stages —
  the last axis, then the first, then (of what is left) the second, then the second again — down to the 16 classes,
  the composite of the four drops keeps exactly the class coordinate (axis 1 of the tile), so the staged reduction at
  class `c` is the sum over every tile index whose class coordinate is `c` (`staged_eq_class_sum`). For the whole
  array reduced in one step over the axes 0, 2, 3, 4 the drop keeps the class coordinate as well, so that reduction
  is the initial value plus the sum over every array index of class `c` (`host_eq_class_sum`).
-/
import proofs.«117006_j21577915695561_2_alg».proof.Proof.TileSum
import Idealize.ShloMosaic.PureOps.Reduce

noncomputable section

open scoped BigOperators

namespace Cert.Bce

open Idealize.ShloMosaic Idealize.ShloMosaic.ValueIdx

/-- The tile with its last axis summed away, -/
abbrev Blk4 : Shape := ⟨4, ![2, 16, 2, 128]⟩
/-- then its first, -/
abbrev Blk3 : Shape := ⟨3, ![16, 2, 128]⟩
/-- then the two depths of the tile, -/
abbrev Blk2 : Shape := ⟨2, ![16, 128]⟩
/-- then the rows: one value per class. -/
abbrev Cls : Shape := ⟨1, ![16]⟩

/-- The four drops in sequence keep the class coordinate of a tile index. -/
theorem staged_drop_val (r4 : Blk.Reduces [4] Blk4) (r0 : Blk4.Reduces [0] Blk3) (r1 : Blk3.Reduces [1] Blk2)
    (r1' : Blk2.Reduces [1] Cls) (y : Blk.Idx) :
    ((r1'.drop (r1.drop (r0.drop (r4.drop y)))) ⟨0, by decide⟩).val = (y 1).val := by
  rw [r1'.drop_apply_val_of_eq _ ⟨0, by decide⟩ ⟨0, by decide⟩, r1.drop_apply_val_of_eq _ ⟨0, by decide⟩ ⟨0, by decide⟩,
    r0.drop_apply_val_of_eq _ ⟨0, by decide⟩ ⟨1, by decide⟩, r4.drop_apply_val_of_eq _ ⟨1, by decide⟩ ⟨1, by decide⟩]
  rfl

/-- The staged reduction of a tile, at class `j`, is the sum over the tile's indices of that class. -/
theorem staged_eq_class_sum (r4 : Blk.Reduces [4] Blk4) (r0 : Blk4.Reduces [0] Blk3) (r1 : Blk3.Reduces [1] Blk2)
    (r1' : Blk2.Reduces [1] Cls) (v : Blk.Idx → EReal) (j : Cls.Idx) :
    Ideal.reduceAdd r1' (Ideal.reduceAdd r1 (Ideal.reduceAdd r0 (Ideal.reduceAdd r4 v))) j
      = ∑ y ∈ Finset.univ.filter (fun y : Blk.Idx => (y 1).val = (j ⟨0, by decide⟩).val), v y := by
  unfold Ideal.reduceAdd
  rw [sum_fibre_fibre r1.drop r1'.drop _ j, sum_fibre_fibre r0.drop (fun k => r1'.drop (r1.drop k)) _ j,
    sum_fibre_fibre r4.drop (fun k => r1'.drop (r1.drop (r0.drop k))) _ j]
  refine Finset.sum_congr ?_ fun _ _ => rfl
  ext y
  simp only [Finset.mem_filter, Finset.mem_univ, true_and]
  constructor
  · intro h
    rw [← staged_drop_val r4 r0 r1 r1' y, h]
  · intro h
    funext b
    have hb : b = ⟨0, by decide⟩ := Fin.ext (by have : b.val < 1 := b.isLt; show b.val = 0; omega)
    subst hb
    exact Fin.ext ((staged_drop_val r4 r0 r1 r1' y).trans h)

/-- The one-step reduction of the whole array over the axes 0, 2, 3, 4 keeps the class coordinate. -/
theorem host_drop_val (r : Arr.ReducesTo [0, 2, 3, 4] Cls) (i : Arr.Idx) :
    ((r.drop i) ⟨0, by decide⟩).val = (i 1).val :=
  r.drop_apply_val_of_eq i ⟨0, by decide⟩ ⟨1, by decide⟩

/-- The one-step reduction of the whole array, at class `j`: the initial value plus the sum over the array's indices of
    that class. -/
theorem host_eq_class_sum (r : Arr.ReducesTo [0, 2, 3, 4] Cls) (x : Arr.Idx → EReal) (init : EReal) (j : Cls.Idx) :
    Ideal.hostReduceAdd r x init j
      = init + ∑ i ∈ Finset.univ.filter (fun i : Arr.Idx => (i 1).val = (j ⟨0, by decide⟩).val), x i := by
  unfold Ideal.hostReduceAdd
  refine congrArg (init + ·) (Finset.sum_congr ?_ fun _ _ => rfl)
  ext i
  simp only [Finset.mem_filter, Finset.mem_univ, true_and]
  constructor
  · intro h
    rw [← host_drop_val r i, h]
  · intro h
    funext b
    have hb : b = ⟨0, by decide⟩ := Fin.ext (by have : b.val < 1 := b.isLt; show b.val = 0; omega)
    subst hb
    exact Fin.ext ((host_drop_val r i).trans h)

end Cert.Bce

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Payload.lean ====
/-
  The value the kernel body stores, read at one class, on the extended reals.

  The body computes the loss of every element of the two input tiles, sums the losses in four single-axis stages down
  to one value per class, casts that length-16 vector to a 16 × 1 column, and adds the column to the accumulator. So
  at class `c` the stored value is the accumulator's entry plus the sum of the losses over the tile's indices of class
  `c`. The zeros the first grid point stores are the extended real `0`.
-/
import proofs.«117006_j21577915695561_2_alg».proof.Proof.Gen.KernelIdeal.Skeleton
import proofs.«117006_j21577915695561_2_alg».proof.Proof.ClassSums
import proofs.«117006_j21577915695561_2_alg».proof.Proof.LibKeepdims
import Idealize.ShloMosaic.Lib.Pipeline.Value
import Idealize.ShloMosaic.PureOps.Ideal.Laws

noncomputable section

open scoped BigOperators

namespace Cert.KernelIdeal.Acc

open Cert.KernelIdeal Cert.KernelIdeal.Gen Idealize.ShloMosaic Idealize.ShloMosaic.ValueIdx Cert.Bce

/-- The block of zeros holds `0` at every index. -/
theorem zeros_apply (q : S16x1.Idx) : k0_pay1 (F := Ideal) q = (0 : EReal) :=
  Ideal.ofBits_zero_f32

/-- The stored value at class `c`: the accumulator there plus the tile's losses of that class, summed. -/
theorem stored_apply (x0 x1 : Vec Ideal S2x16x2x128x128 .f32) (acc : Vec Ideal S16x1 .f32) (c : Fin 16) (u : Fin 1) :
    k0_pay2 (F := Ideal) x0 x1 acc (ix2 c u)
      = acc (ix2 c u) + ∑ y ∈ Finset.univ.filter (fun y : Blk.Idx => (y 1).val = c.val), loss (x0 y) (x1 y) := by
  unfold k0_pay2
  dsimp only
  -- on the extended reals each sum-reduction is, by definition, the sum over the fibre of its drop
  show (shapeCast S16x1 acc shapeCasts_S16x1_S16x1 (ix2 c u) : EReal)
      + shapeCast S16x1 (Ideal.reduceAdd reduces_S16x128_S16 (Ideal.reduceAdd reduces_S16x2x128_S16x128
          (Ideal.reduceAdd reduces_S2x16x2x128_S16x2x128 (Ideal.reduceAdd reduces_S2x16x2x128x128_S2x16x2x128 _))))
        shapeCasts_S16_S16x1 (ix2 c u) = _
  rw [shapeCast_self, Cert.Keepdims.shapeCast_a_a1_apply, staged_eq_class_sum]
  refine congrArg (acc (ix2 c u) + ·) (Finset.sum_congr rfl fun y _ => ?_)
  show Ideal.ofBits .f32 0x00000000#32
      - (x1 y * max (Ideal.log (x0 y)) lo + (one - x1 y) * max (Ideal.log1p (Ideal.ofBits .f32 0x00000000#32 - x0 y)) lo)
    = loss (x0 y) (x1 y)
  rw [Ideal.ofBits_zero_f32]
  exact loss_sub (x0 y) (x1 y)

end Cert.KernelIdeal.Acc

end
-- ==== Proof.Tiles.lean ====
/-
  The input tiles the kernel body sees at a grid point are tiles of the argument arrays.

  Both inputs are staged through windows of shape 2 × 16 × 2 × 128 × 128 whose block index at grid point `t` is
  `(0, 0, t, 0, 0)`: the block's element `y` is the array's element at `index × extent + y` on each axis, that is at
  depth `2t + y₂` and at `y`'s own coordinates on the other axes — `Bce.place t y`. No host operation runs before the
  kernel, so the arrays the windows read are the argument arrays themselves.
-/
import proofs.«117006_j21577915695561_2_alg».proof.Proof.Gen.KernelIdeal.Frame
import proofs.«117006_j21577915695561_2_alg».proof.Proof.TileSum
import Idealize.ShloMosaic.Lib.Pipeline.Value

noncomputable section

open Idealize.ShloMosaic Idealize.ShloMosaic.TcCoe Idealize.SL.Sem

namespace Cert.KernelIdeal.Acc

open Cert.KernelIdeal Cert.KernelIdeal.Gen Cert.Bce

variable {F : FTy → Type} [FloatOps F]
variable (m : (ℓ : Loc nD τ sig) → Buf (Elt F) ℓ)

/-- The grid has 32 points. -/
theorem point_lt (t : Fin cfg0.N) : t.val < 32 := lt_of_lt_of_eq t.isLt (show cfg0.N = 32 from N_0)

/-- The grid point as one of the 32 tiles of the depth axis. -/
abbrev tile (t : Fin cfg0.N) : Fin 32 := ⟨t.val, point_lt t⟩

/-- At grid point `t` the first input's block index is `(0, 0, t, 0, 0)`, -/
theorem block_index0 : ∀ t : Fin cfg0.N, win0_0.index t 0 = 0 ∧ win0_0.index t 1 = 0 ∧ win0_0.index t 2 = t.val
    ∧ win0_0.index t 3 = 0 ∧ win0_0.index t 4 = 0 :=
  (by decide +kernel : ∀ t : Fin grid0.N, win0_0.index t 0 = 0 ∧ win0_0.index t 1 = 0 ∧ win0_0.index t 2 = t.val
    ∧ win0_0.index t 3 = 0 ∧ win0_0.index t 4 = 0)
/-- and so is the second input's. -/
theorem block_index1 : ∀ t : Fin cfg0.N, win0_1.index t 0 = 0 ∧ win0_1.index t 1 = 0 ∧ win0_1.index t 2 = t.val
    ∧ win0_1.index t 3 = 0 ∧ win0_1.index t 4 = 0 :=
  (by decide +kernel : ∀ t : Fin grid0.N, win0_1.index t 0 = 0 ∧ win0_1.index t 1 = 0 ∧ win0_1.index t 2 = t.val
    ∧ win0_1.index t 3 = 0 ∧ win0_1.index t 4 = 0)

/-- Element `y` of the first input's tile at grid point `t` is the first argument at `place t y`. -/
theorem tile0_apply (c : Dev nD) (t : Fin cfg0.N) (y : S2x16x2x128x128.Idx) :
    (iblk m c 0 t : Vec F S2x16x2x128x128 .f32) y = m ((c : Thread nD τ).loc main_arg0) (place (tile t) y) := by
  obtain ⟨i0, i1, i2, i3, i4⟩ := block_index0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2 + 1 * (y 0).val = (y 0).val; rw [i0]; omega
  | ⟨1, _⟩ => show win0_0.index t 1 * 16 + 1 * (y 1).val = (y 1).val; rw [i1]; omega
  | ⟨2, _⟩ => show win0_0.index t 2 * 2 + 1 * (y 2).val = 2 * t.val + (y 2).val; rw [i2]; omega
  | ⟨3, _⟩ => show win0_0.index t 3 * 128 + 1 * (y 3).val = (y 3).val; rw [i3]; omega
  | ⟨4, _⟩ => show win0_0.index t 4 * 128 + 1 * (y 4).val = (y 4).val; rw [i4]; omega

/-- Element `y` of the second input's tile at grid point `t` is the second argument at `place t y`. -/
theorem tile1_apply (c : Dev nD) (t : Fin cfg0.N) (y : S2x16x2x128x128.Idx) :
    (iblk m c 1 t : Vec F S2x16x2x128x128 .f32) y = m ((c : Thread nD τ).loc main_arg1) (place (tile t) y) := by
  obtain ⟨i0, i1, i2, i3, i4⟩ := block_index1 t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2 + 1 * (y 0).val = (y 0).val; rw [i0]; omega
  | ⟨1, _⟩ => show win0_1.index t 1 * 16 + 1 * (y 1).val = (y 1).val; rw [i1]; omega
  | ⟨2, _⟩ => show win0_1.index t 2 * 2 + 1 * (y 2).val = 2 * t.val + (y 2).val; rw [i2]; omega
  | ⟨3, _⟩ => show win0_1.index t 3 * 128 + 1 * (y 3).val = (y 3).val; rw [i3]; omega
  | ⟨4, _⟩ => show win0_1.index t 4 * 128 + 1 * (y 4).val = (y 4).val; rw [i4]; omega

end Cert.KernelIdeal.Acc

end
-- ==== Proof.Running.lean ====
/-
  The accumulator after each grid point is a running total of per-tile class sums.

  Write `pointSum k t` for the sum of the losses over the class-`k` elements of tile `t` of the two arguments. The first
  grid point stores `0 + pointSum k 0` at class `k`; every later point `t` adds `pointSum k t` to what the point before
  left. By induction on the point the accumulator after point `n` holds `∑ t ≤ n, pointSum k t`: the points are never
  enumerated, and nothing about the order of the additions is used beyond their being additions.
-/
import proofs.«117006_j21577915695561_2_alg».proof.Proof.Pieces
import proofs.«117006_j21577915695561_2_alg».proof.Proof.Payload
import proofs.«117006_j21577915695561_2_alg».proof.Proof.Tiles

noncomputable section

open scoped BigOperators
open Idealize.ShloMosaic Idealize.ShloMosaic.TcCoe Idealize.SL.Sem

namespace Cert.KernelIdeal.Acc

open Cert.KernelIdeal Cert.KernelIdeal.Gen Idealize.ShloMosaic.ValueIdx Cert.Bce

variable (m : (ℓ : Loc nD τ sig) → Buf (Elt Ideal) ℓ)

/-- The losses of the class-`k` elements of tile `t` of the two arguments, summed (nothing beyond the 32 tiles). -/
def pointSum (c : Dev nD) (k : ℕ) (t : ℕ) : EReal :=
  if h : t < 32 then
    ∑ y ∈ Finset.univ.filter (fun y : Blk.Idx => (y 1).val = k),
      loss (m ((c : Thread nD τ).loc main_arg0) (place ⟨t, h⟩ y)) (m ((c : Thread nD τ).loc main_arg1) (place ⟨t, h⟩ y))
  else 0

/-- The class-`k` losses of the two input tiles the body sees at grid point `t` sum to `pointSum k t`. -/
theorem tile_losses (c : Dev nD) (t : Fin cfg0.N) (k : ℕ) :
    ∑ y ∈ Finset.univ.filter (fun y : Blk.Idx => (y 1).val = k),
        loss ((iblk m c 0 t : Vec Ideal S2x16x2x128x128 .f32) y) ((iblk m c 1 t : Vec Ideal S2x16x2x128x128 .f32) y)
      = pointSum m c k t.val := by
  unfold pointSum
  rw [dif_pos (point_lt t)]
  refine Finset.sum_congr rfl fun y _ => ?_
  rw [tile0_apply m c t y, tile1_apply m c t y]

/-- The first grid point, at class `k`: the class-`k` losses of the input tiles, summed (onto the zero just stored). -/
theorem first_apply (c : Dev nD) (i : grid0.Coords)
    (a1 : Memref sig .tc .vmem S2x16x2x128x128 .f32) (h1 : a1.IsWhole)
    (a2 : Memref sig .tc .vmem S2x16x2x128x128 .f32) (h2 : a2.IsWhole)
    (a3 : Memref sig .tc .vmem S16x1 .f32) (h3 : a3.IsWhole) (hc : cond0_0 i)
    (x0 x1 : Vec Ideal S2x16x2x128x128 .f32) (k : Fin 16) (u : Fin 1) :
    out0_A_2 (F := Ideal) c i a1 h1 a2 h2 a3 h3 hc x0 x1 (ix2 k u)
      = ∑ y ∈ Finset.univ.filter (fun y : Blk.Idx => (y 1).val = k.val), loss (x0 y) (x1 y) := by
  rw [left_first, stored_apply, zeros_apply, zero_add]

/-- A later grid point, at class `k`: what the point before left there, plus the class-`k` losses of the input tiles. -/
theorem later_apply (c : Dev nD) (i : grid0.Coords)
    (a1 : Memref sig .tc .vmem S2x16x2x128x128 .f32) (h1 : a1.IsWhole)
    (a2 : Memref sig .tc .vmem S2x16x2x128x128 .f32) (h2 : a2.IsWhole)
    (a3 : Memref sig .tc .vmem S16x1 .f32) (h3 : a3.IsWhole) (hc : ¬cond0_0 i)
    (x0 x1 : Vec Ideal S2x16x2x128x128 .f32) (xo : Vec Ideal S16x1 .f32) (k : Fin 16) (u : Fin 1) :
    out0_B_2 (F := Ideal) c i a1 h1 a2 h2 a3 h3 hc x0 x1 xo (ix2 k u)
      = xo (ix2 k u) + ∑ y ∈ Finset.univ.filter (fun y : Blk.Idx => (y 1).val = k.val), loss (x0 y) (x1 y) := by
  rw [left_later, stored_apply]

/-- After grid point `n` the accumulator holds, at class `k`, the per-tile class sums of the tiles `0 … n`, added up. -/
theorem running (c : Dev nD) (k : Fin 16) (u : Fin 1) : ∀ (n : ℕ) (hn : n < cfg0.N),
    outsAt0 m c n hn (ix2 k u) = ∑ t ∈ Finset.range (n + 1), pointSum m c k.val t
  | 0, hn => by
    rw [outsAt0_A m c ⟨0, hn⟩ rfl]
    refine (first_apply c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr rfl) (iblk m c 0 ⟨0, hn⟩) (iblk m c 1 ⟨0, hn⟩) k u).trans ?_
    rw [Finset.sum_range_one]
    exact tile_losses m c ⟨0, hn⟩ k.val
  | n + 1, hn => by
    have hlt : n + 1 < 32 := point_lt ⟨n + 1, hn⟩
    have hB : ¬(⟨n + 1, hn⟩ : Fin cfg0.N).val % 32 = 0 := by dsimp only; omega
    rw [outsAt0_B m c ⟨n + 1, hn⟩ hB]
    refine (later_apply c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (fun h => hB ((hcond0_0 ⟨n + 1, hn⟩).mp h))
      (iblk m c 0 ⟨n + 1, hn⟩) (iblk m c 1 ⟨n + 1, hn⟩) (outsAt0 m c n (Nat.lt_of_succ_lt hn)) k u).trans ?_
    rw [running c k u n (Nat.lt_of_succ_lt hn), Finset.sum_range_succ _ (n + 1)]
    exact congrArg (_ + ·) (tile_losses m c ⟨n + 1, hn⟩ k.val)

end Cert.KernelIdeal.Acc

end
-- ==== Proof.Mean.lean ====
/-
  The last stretch both programs share: from the sixteen per-class totals to the weighted mean.

  Given the per-class totals `S` and the class weights `w`, both programs divide each total by the number of elements
  of a class (the word `0x4A000000`, which is 2²¹ = 2 · 64 · 128 · 128), multiply by the class's weight, add the sixteen
  products up, and divide by the sum of the weights. They do so with the same operations on the same words in the
  same order, so this stretch is written once, as one function of `S` and `w`, and is never opened: the two programs'
  results are equal as soon as their per-class totals are.
-/
import Idealize.ShloMosaic.PureOps.Ideal
import Idealize.ShloMosaic.PureOps.Contract

noncomputable section

namespace Cert.Bce

open Idealize.ShloMosaic

/-- One value per class, -/
abbrev Per : Shape := ⟨1, ![16]⟩
/-- and a single value. -/
abbrev One : Shape := ⟨0, ![]⟩

/-- The weighted mean of the per-class means: `(∑ₖ wₖ · (Sₖ / 2²¹)) / ∑ₖ wₖ`, in the programs' own operations. -/
def weightedMean (hb : One.BroadcastsInDim Per (![] : Fin 0 → Fin Per.rank)) (hr : Per.ReducesTo [0] One)
    (hn : 0 < One.numel) (S w : FVec Ideal Per .f32) : FVec Ideal One .f32 :=
  Host.divf
    (Host.reduceAdd
      (mulf w (Host.divf S (broadcastInDim Per ![] hb (constant (F := Ideal) One .f32 0x4A000000#32))))
      (constant (F := Ideal) One .f32 0x00000000#32) hr hn)
    (Host.reduceAdd w (constant (F := Ideal) One .f32 0x00000000#32) hr hn)

end Cert.Bce

end
-- ==== Proof.Result.lean ====
/-
  What the kernel program returns, on the extended reals.

  The accumulator's one block is the whole 16 × 1 result array of the kernel and is written back once, after the last
  grid point; so that array ends holding the accumulator after point 31 (`result_array`). The host operations after
  the kernel read it back as a length-16 vector and take the weighted mean of the per-class means with the weights,
  the third argument, which nothing writes (`returned`). The run: every execution ends with the result at that
  value and the three arguments unchanged.
-/
import proofs.«117006_j21577915695561_2_alg».proof.Proof.Running
import proofs.«117006_j21577915695561_2_alg».proof.Proof.Mean
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.Bce

variable (m : (ℓ : Loc nD τ sig) → Buf (Elt Ideal) ℓ) (ρ : Dev nD → PrngReg)

/-- The last of the 32 grid points. -/
abbrev lastPoint : Fin cfg0.N := ⟨31, by rw [show cfg0.N = 32 from N_0]; decide⟩

/-- The accumulator after the last grid point, as contents of the kernel's result array. -/
abbrev totals (c : Dev nD) : Buf (Elt Ideal) ((c : Thread nD τ).loc main_v0) := outsAt0 m c 31 lastPoint.isLt

/-- The one write-back, after the last point, writes the accumulator: the block at index `(0, 0)` of full extent,
    read through zero offsets, is the whole array. -/
theorem written_back (c : Dev nD) (t : Fin cfg0.N) (hf : (cfg0.win 2).flush t = true) :
    (dats m 0 c).flushed 2 t = ((cfg0.win 2).blk t).view.read (Elt Ideal) (totals m c) := by
  have h31 : t.val = 31 := by have := (flush0_2 t).mp hf; have := point_lt t; omega
  obtain rfl : t = lastPoint := Fin.ext h31
  show (cfg0.win 2).cut (grid0.coords lastPoint) ((dats m 0 c).after 2 lastPoint) = _
  rw [after0_2]
  have hoff : (fun a => win0_2.index lastPoint a * main_v0.ty.shape.size a) = fun _ => 0 :=
    funext fun a => by fin_cases a <;> decide
  exact (Memref.read_access_unit_zero (Elt Ideal) main_v0 hoff (fun a => by rw [congrFun hoff a]; simp) (totals m c)).symm

/-- So the kernel's result array ends holding the accumulator after the last point: that point's block covers it. -/
theorem result_array (c : Dev nD) : (dats m 0 c).arrAt 2 cfg0.N = totals m c :=
  (dats m 0 c).arrAt_eq_of_cover 2 (totals m c) (written_back m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 16 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 16 from by decide +kernel]
        omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 1 from by decide +kernel]
        omega⟩

/-- What the host operations after the kernel leave in the program's result: the weighted mean of the per-class means
    of the accumulated totals, with the third argument as weights. -/
theorem returned (c : Dev nD) :
    Pipeline.afterTail₀ cfgs (dats m) 0 (V0 m) [hostOps1] c main_v7
      = weightedMean bcast_S_S16 reducesTo_S16_S_d0 h_S_ (shapeCast S16 (totals m c) shapeCasts_S16x1_S16)
          (m ((c : Thread nD τ).loc main_arg2)) := by
  have eA : Pipeline.withArrays (cfgs 0).spec c (V0 m c) (fun w => (dats m 0 c).arrAt w (cfgs 0).N)
      (Proc.devRef .tc main_v0) = totals m c :=
    (Pipeline.withArrays_arr spec0 launch0.win.arr_inj c _ _ 2).trans (result_array m c)
  have eW : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  unfold Pipeline.afterTail₀
  show StableHlo.after hostOps1 _ (Proc.devRef .tc main_v7) = _
  after_results
  rw [eA, eW]
  rfl

/-- The run, read: the result at the weighted mean of the accumulated totals, the three arguments unchanged. -/
theorem run : θ_run defs (onTc (τ := τ) (main (F := Ideal))) ⟨m, fun _ => 0, ρ⟩ fun r => ∀ c : Dev nD,
      r.2.mem ((c.tc : Thread nD τ).loc main_v7)
          = weightedMean bcast_S_S16 reducesTo_S16_S_d0 h_S_ (shapeCast S16 (totals m c) shapeCasts_S16x1_S16)
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (returned m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Acc

end
-- ==== Proof.LibColumn.lean ====
/-
  A column read back as a vector: an `a × 1` column cast to a length-`a` vector holds, at `i`, the column's entry
  `(i, 0)` — the row-major position `i · 1 + 0` is `i`. (The opposite cast, a vector kept as a column, is the same
  identity read the other way.)
-/
import Idealize.ShloMosaic.Lib.Pipeline.Value
import Idealize.ShloMosaic.Lib.ValueIdx

namespace Cert.Column

open Idealize.ShloMosaic Idealize.ShloMosaic.ValueIdx

variable {α : Type}

/-- An `a × 1` column cast to a length-`a` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Column
-- ==== Proof.KernelTotals.lean ====
/-
  The kernel's accumulated totals are the class sums over the whole arrays.

  After the last grid point the accumulator holds, at class `k`, the per-tile class sums of all 32 tiles added up. Each
  per-tile sum runs over the tile's indices of class `k`, placed in the array at depth `2t + y₂`; summing over the 32
  tiles is summing over every array index of class `k` (`Bce.sum_tiles`). Read back as a length-16 vector, entry `k` is
  the column's entry `(k, 0)`.
-/
import proofs.«117006_j21577915695561_2_alg».proof.Proof.Result
import proofs.«117006_j21577915695561_2_alg».proof.Proof.LibColumn

noncomputable section

open scoped BigOperators
open Idealize.ShloMosaic Idealize.ShloMosaic.TcCoe Idealize.SL.Sem

namespace Cert.KernelIdeal.Acc

open Cert.KernelIdeal Cert.KernelIdeal.Gen Idealize.ShloMosaic.ValueIdx Cert.Bce

variable (m : (ℓ : Loc nD τ sig) → Buf (Elt Ideal) ℓ)

/-- The accumulated totals, read back as a vector, at class `k`: the losses of the two whole argument arrays over the
    indices of class `k`, summed. -/
theorem totals_apply (c : Dev nD) (k : Fin 16) :
    shapeCast S16 (totals m c) shapeCasts_S16x1_S16 (ix1 k)
      = ∑ i ∈ Finset.univ.filter (fun i : Arr.Idx => (i 1).val = k.val),
          loss (m ((c : Thread nD τ).loc main_arg0) i) (m ((c : Thread nD τ).loc main_arg1) i) := by
  rw [Cert.Column.shapeCast_a1_a_apply]
  show outsAt0 m c 31 lastPoint.isLt (ix2 k (0 : Fin 1)) = _
  rw [running m c k 0 31 lastPoint.isLt, show (31 : ℕ) + 1 = 32 from rfl, Finset.sum_range,
    ← sum_tiles (fun i => loss (m ((c : Thread nD τ).loc main_arg0) i) (m ((c : Thread nD τ).loc main_arg1) i)) k.val]
  refine Finset.sum_congr rfl fun t _ => ?_
  unfold pointSum
  exact (dif_pos t.isLt).trans rfl

end Cert.KernelIdeal.Acc

end
-- ==== Proof.RefTotals.lean ====
/-
  The reference's per-class totals, on the extended reals.

  The reference computes the loss of every element of the two whole arrays and sums, in one step over the axes
  0, 2, 3 and 4, down to one total per class, starting from zero; then it takes the weighted mean of the per-class
  means (the stretch it shares with the kernel program). At class `k` its total is therefore the sum of the losses
  over every array index whose class coordinate is `k`.
-/
import proofs.«117006_j21577915695561_2_alg».proof.Proof.Gen.ReferenceIdeal.Run
import proofs.«117006_j21577915695561_2_alg».proof.Proof.ClassSums
import proofs.«117006_j21577915695561_2_alg».proof.Proof.Mean
import Idealize.ShloMosaic.PureOps.Ideal.Laws

noncomputable section

open scoped BigOperators

namespace Cert.ReferenceIdeal.Totals

open Cert.ReferenceIdeal Cert.ReferenceIdeal.Gen Idealize.ShloMosaic Idealize.ShloMosaic.ValueIdx Cert.Bce

/-- The per-class totals of the losses of predictions `P` against targets `T`, in the reference's own operations. -/
def classTotals (P T : FVec Ideal S2x16x64x128x128 .f32) : FVec Ideal S16 .f32 :=
  Host.reduceAdd
    (Host.negf (addf
      (mulf T (maximumf (Host.log P)
        (broadcastInDim S2x16x64x128x128 ![] bcast_S_S2x16x64x128x128 (constant S_ .f32 0xC2C80000#32))))
      (mulf (subf (broadcastInDim S2x16x64x128x128 ![] bcast_S_S2x16x64x128x128 (constant S_ .f32 0x3F800000#32)) T)
        (maximumf (Host.log1p (Host.negf P))
          (broadcastInDim S2x16x64x128x128 ![] bcast_S_S2x16x64x128x128 (constant S_ .f32 0xC2C80000#32))))))
    (constant S_ .f32 0x00000000#32) reducesTo_S2x16x64x128x128_S16_d0_2_3_4 h_S_

/-- At class `k` the total is the sum of the losses over the array's indices of that class. -/
theorem classTotals_apply (P T : FVec Ideal S2x16x64x128x128 .f32) (k : Fin 16) :
    classTotals P T (ix1 k)
      = ∑ i ∈ Finset.univ.filter (fun i : Arr.Idx => (i 1).val = k.val), loss (P i) (T i) := by
  unfold classTotals
  show Ideal.hostReduceAdd reducesTo_S2x16x64x128x128_S16_d0_2_3_4 _ (Ideal.ofBits .f32 0x00000000#32) (ix1 k) = _
  rw [host_eq_class_sum, Ideal.ofBits_zero_f32, zero_add]
  exact Finset.sum_congr rfl fun i _ => rfl

end Cert.ReferenceIdeal.Totals

end
-- ==== Proof.lean ====
/-
  A class-weighted binary cross-entropy: a kernel that accumulates per-class totals tile by tile, against the plain
  formula.

  Both programs take predictions and targets of shape 2 × 16 × 64 × 128 × 128 and sixteen class weights, form for every
  element the loss `-(t · max(log p, -100) + (1 - t) · max(log(1 + (-p)), -100))`, total the losses per class (axis 1),
  divide each total by the 2²¹ elements of a class, and return the weighted mean `(∑ₖ wₖ · meanₖ) / ∑ₖ wₖ`.

  They differ only in how a class total is formed. The reference sums over the axes 0, 2, 3, 4 in one step, from zero.
  The kernel walks the depth axis in 32 tiles of two: at each tile it sums the tile's losses over the last axis, the
  first, the tile's two depths and the rows, and adds the sixteen results to an accumulator that the first tile zeroes
  and the last tile's write-back publishes; it also spells both negations as `0 - x`. On the extended reals
  `0 - x = -x` and `0 + x = x` hold everywhere, and addition is commutative and associative, so a sum may be taken in
  any grouping and order: the staged per-tile sums are sums over the tile's indices of one class (Proof/ClassSums),
  and every array index of a class lies in exactly one tile at exactly one place (Proof/TileSum), whence the kernel's
  totals are the reference's (`totals_agree`). Nothing here needs the inputs to be finite. After the totals the two
  programs apply the same operations to the same words, which is written once (Proof/Mean) and never opened.

  The three frames are the generated ones (the reference's is its generated run with the result dropped); the ideal
  pass rewrote nothing, so the kernel's idealization is the kernel's own text and that conjunct is trivial.
-/
import proofs.«117006_j21577915695561_2_alg».proof.Defs
import proofs.«117006_j21577915695561_2_alg».proof.Proof.Gen.Kernel
import proofs.«117006_j21577915695561_2_alg».proof.Proof.Gen.Kernel.Frame
import proofs.«117006_j21577915695561_2_alg».proof.Proof.Gen.KernelIdeal
import proofs.«117006_j21577915695561_2_alg».proof.Proof.Gen.KernelIdeal.Frame
import proofs.«117006_j21577915695561_2_alg».proof.Proof.Gen.ReferenceIdeal
import proofs.«117006_j21577915695561_2_alg».proof.Proof.Gen.ReferenceIdeal.Run
import proofs.«117006_j21577915695561_2_alg».proof.Proof.Gen.Pre_finite_inputs
import proofs.«117006_j21577915695561_2_alg».proof.Proof.KernelTotals
import proofs.«117006_j21577915695561_2_alg».proof.Proof.RefTotals
import Idealize.ShloMosaic.Adequacy
import Idealize.ShloMosaic.Init

noncomputable section

namespace Cert.Proof

open Idealize.ShloMosaic Idealize.ShloMosaic.TcCoe Idealize.SL.Sem Idealize.ShloMosaic.ValueIdx
open Cert.Bce Cert.KernelIdeal.Acc Cert.ReferenceIdeal.Totals

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- The kernel's accumulated totals, read back as a vector, are the reference's per-class totals of arrays that agree
    with the kernel's: class by class both are the sum of the losses over the array's indices of that class. -/
theorem totals_agree
    (m : (ℓ : Loc Cert.KernelIdeal.nD Cert.KernelIdeal.τ Cert.KernelIdeal.sig) → Buf (Elt Ideal) ℓ)
    (c : Dev Cert.KernelIdeal.nD) (P T : FVec Ideal Cert.ReferenceIdeal.S2x16x64x128x128 .f32)
    (hP : P = m ((c.tc : Thread Cert.KernelIdeal.nD Cert.KernelIdeal.τ).loc Cert.KernelIdeal.main_arg0))
    (hT : T = m ((c.tc : Thread Cert.KernelIdeal.nD Cert.KernelIdeal.τ).loc Cert.KernelIdeal.main_arg1)) :
    shapeCast Cert.KernelIdeal.S16 (totals m c) Cert.KernelIdeal.Gen.shapeCasts_S16x1_S16 = classTotals P T := by
  subst hP hT
  funext j
  obtain ⟨k, rfl⟩ : ∃ k : Fin 16, j = ix1 k := ⟨j 0, eq_ix1 j⟩
  rw [totals_apply, classTotals_apply]

/-- On the extended reals the kernel program and the reference, run on arguments that agree, return the same value:
    the shared last stretch applied to equal per-class totals and the same weights. -/
theorem algebraic : Cert.algebraic_KernelIdeal_ReferenceIdeal := by
  intro m ρ m' ρ' _ hagree
  refine ⟨fun c => weightedMean Cert.KernelIdeal.Gen.bcast_S_S16 Cert.KernelIdeal.Gen.reducesTo_S16_S_d0 Cert.KernelIdeal.Gen.h_S_
      (shapeCast Cert.KernelIdeal.S16 (totals m c) Cert.KernelIdeal.Gen.shapeCasts_S16x1_S16)
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  show weightedMean _ _ _
      (classTotals (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg2)) = _
  rw [(hagree c).2.2]
  exact congrArg
    (fun S => weightedMean Cert.KernelIdeal.Gen.bcast_S_S16 Cert.KernelIdeal.Gen.reducesTo_S16_S_d0 Cert.KernelIdeal.Gen.h_S_ S
      (m ((c.tc : Thread Cert.KernelIdeal.nD Cert.KernelIdeal.τ).loc Cert.KernelIdeal.main_arg2)))
    (totals_agree m c _ _ (hagree c).1 (hagree c).2.1).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
